-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128 : Shape := ⟨3, ![4, 256, 128]⟩
abbrev S128x128 : Shape := ⟨2, ![128, 128]⟩
abbrev S384x256 : Shape := ⟨2, ![384, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4x256x128 .f32) (main_arg1 : FVec F S128x128 .f32) (main_arg2 : FVec F S384x256 .f32) (main_arg3 : FVec F S256 .f32) (main_arg4 : FVec F S256x1 .f32) (main_arg5 : FVec F S1 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S384x256 .f32 := Host.absf main_arg2
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4x256x128 : Shape := ⟨3, ![4, 256, 128]⟩
abbrev S128x128 : Shape := ⟨2, ![128, 128]⟩
abbrev S384x256 : Shape := ⟨2, ![384, 256]⟩
abbrev S256 : Shape := ⟨1, ![256]⟩
abbrev S256x1 : Shape := ⟨2, ![256, 1]⟩
abbrev S1 : Shape := ⟨1, ![1]⟩
abbrev S128x256 : Shape := ⟨2, ![128, 256]⟩
abbrev S4x256x256 : Shape := ⟨3, ![4, 256, 256]⟩
abbrev S1x256x128 : Shape := ⟨3, ![1, 256, 128]⟩
abbrev S1x64x256 : Shape := ⟨3, ![1, 64, 256]⟩
abbrev S256x256 : Shape := ⟨2, ![256, 256]⟩
abbrev S1x256 : Shape := ⟨2, ![1, 256]⟩
abbrev S256x128 : Shape := ⟨2, ![256, 128]⟩
abbrev S128 : Shape := ⟨1, ![128]⟩
abbrev S1x128 : Shape := ⟨2, ![1, 128]⟩
abbrev S1x64x128 : Shape := ⟨3, ![1, 64, 128]⟩
abbrev S64x128 : Shape := ⟨2, ![64, 128]⟩
abbrev S64x256 : Shape := ⟨2, ![64, 256]⟩
abbrev S64x1x256 : Shape := ⟨3, ![64, 1, 256]⟩
abbrev S1x256x256 : Shape := ⟨3, ![1, 256, 256]⟩
abbrev S64x256x256 : Shape := ⟨3, ![64, 256, 256]⟩
abbrev S1x1x256 : Shape := ⟨3, ![1, 1, 256]⟩
abbrev S4x256x256x1 : Shape := ⟨4, ![4, 256, 256, 1]⟩

abbrev nBuf : Space → Nat
  | .hbm => 12
  | .vmem => 13
  | .smem => 0
  | _ => 0

abbrev bufTy : (tb : Table) → Fin (tcTables nBuf tb) → BufTy
  | .hbm, ⟨0, _⟩ => ⟨S4x256x128, .f32⟩
  | .hbm, ⟨1, _⟩ => ⟨S128x128, .f32⟩
  | .hbm, ⟨2, _⟩ => ⟨S384x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S4x256x256, .f32⟩
  | .hbm, ⟨11, _⟩ => ⟨S4x256x256x1, .f32⟩
  | .local _ .vmem, ⟨0, _⟩ => ⟨S1x256x128, .f32⟩
  | .local _ .vmem, ⟨1, _⟩ => ⟨S1x256x128, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S128x256, .f32⟩
  | .local _ .vmem, ⟨6, _⟩ => ⟨S256, .f32⟩
  | .local _ .vmem, ⟨7, _⟩ => ⟨S256, .f32⟩
  | .local _ .vmem, ⟨8, _⟩ => ⟨S1, .f32⟩
  | .local _ .vmem, ⟨9, _⟩ => ⟨S1x64x256, .f32⟩
  | .local _ .vmem, ⟨10, _⟩ => ⟨S1x64x256, .f32⟩
  | .local _ .vmem, ⟨11, _⟩ => ⟨S256x256, .f32⟩
  | .local _ .vmem, ⟨12, _⟩ => ⟨S1x256, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_off1 (i : grid0.Coords) : Fin 3 → Nat :=
  let c0 : Index := 0#32
  let arg1 : BitVec 32 := BitVec.ofNat 32 (i 1).val
  let c64_i32 : BitVec 32 := 64#32
  let v3 : BitVec 32 := Scalar.muli arg1 c64_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S384x256_S128x256_0_0 : S384x256.Slices ![0, 0] S128x256
  slices_S384x256_S128x256_128_0 : S384x256.Slices ![128, 0] S128x256
  slices_S384x256_S128x256_256_0 : S384x256.Slices ![256, 0] S128x256
  shapeCasts_S256x1_S256 : S256x1.ShapeCasts S256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S256x128_S128 : S256x128.Reduces [0] S128
  shapeCasts_S128_S1x128 : S128.ShapeCasts S1x128
  inb_S128x128_S128x128_0_0 : ∀ a, (![0, 0] : Fin 2 → Nat) a + S128x128.size a ≤ S128x128.size a
  h_S128x128 : 0 < S128x128.numel
  inb_S256_S256_0 : ∀ a, (![0] : Fin 1 → Nat) a + S256.size a ≤ S256.size a
  h_S256 : 0 < S256.numel
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S1x64x128 : 0 < S1x64x128.numel
  shapeCasts_S1x64x128_S64x128 : S1x64x128.ShapeCasts S64x128
  broadcasts_S1x256_S64x256 : S1x256.Broadcasts S64x256
  shapeCasts_S64x256_S64x1x256 : S64x256.ShapeCasts S64x1x256
  shapeCasts_S256x256_S1x256x256 : S256x256.ShapeCasts S1x256x256
  broadcasts_S64x1x256_S64x256x256 : S64x1x256.Broadcasts S64x256x256
  broadcasts_S1x256x256_S64x256x256 : S1x256x256.Broadcasts S64x256x256
  shapeCasts_S256_S256 : S256.ShapeCasts S256
  shapeCasts_S256_S1x1x256 : S256.ShapeCasts S1x1x256
  broadcasts_S1x1x256_S64x256x256 : S1x1x256.Broadcasts S64x256x256
  reduces_S64x256x256_S64x256 : S64x256x256.Reduces [2] S64x256
  inb_S1_S1_0 : ∀ a, (![0] : Fin 1 → Nat) a + S1.size a ≤ S1.size a
  h_S1 : 0 < S1.numel
  inpos_S1_p0 : ∀ a, (![0] : Fin 1 → Nat) a < S1.size a
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  bcast_S4x256x256_S4x256x256x1_0_1_2 : S4x256x256.BroadcastsInDim S4x256x256x1 (![0, 1, 2] : Fin 3 → Fin S4x256x256x1.rank)
  dot_S256x128_S128x256_S256x256_1_0_0_1_n_n_wf : DotDims.WF S256x128 S128x256 S256x256 [1] [0] [0] [1] [] []
  dot_S1x128_S128x128_S1x128_1_0_0_1_n_n_wf : DotDims.WF S1x128 S128x128 S1x128 [1] [0] [0] [1] [] []
  dot_S1x128_S128x256_S1x256_1_0_0_1_n_n_wf : DotDims.WF S1x128 S128x256 S1x256 [1] [0] [0] [1] [] []
  dot_S64x128_S128x256_S64x256_1_0_0_1_n_n_wf : DotDims.WF S64x128 S128x256 S64x256 [1] [0] [0] [1] [] []
  hrank0 : 0 < grid0.rank
  k0_mult1_dvd : ∀ i : grid0.Coords, 64 ∣ (k0_mult1 i).toNat
  k0_off1_inb : ∀ i : grid0.Coords, ∀ a, (k0_off1 i) a + S1x64x128.size a ≤ S1x256x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S4x256x128.size a
  hwx0_0 : ∀ i : grid0.Coords, EltTy.bits .f32 = 32 ∨ (Rect.block (s := S4x256x128) S1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x256.size a ≤ S4x256x256.size a
  hwx0_8 : ∀ i : grid0.Coords, EltTy.bits .f32 = 32 ∨ (Rect.block (s := S4x256x256) S1x64x256.size (cc0_transform_8 i) (hinb0_8 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x64x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x256x128 : Shape := ⟨3, ![4, 256, 128]⟩
abbrev S128x128 : Shape := ⟨2, ![128, 128]⟩
abbrev S384x256 : Shape := ⟨2, ![384, 256]⟩
abbrev S256 : Shape := ⟨1, ![256]⟩
abbrev S256x1 : Shape := ⟨2, ![256, 1]⟩
abbrev S1 : Shape := ⟨1, ![1]⟩
abbrev S_ : Shape := ⟨0, ![]⟩
abbrev S4x128 : Shape := ⟨2, ![4, 128]⟩
abbrev S4x1x1x128 : Shape := ⟨4, ![4, 1, 1, 128]⟩
abbrev S4x256x256x128 : Shape := ⟨4, ![4, 256, 256, 128]⟩
abbrev S4x256x1x128 : Shape := ⟨4, ![4, 256, 1, 128]⟩
abbrev S4x1x256x128 : Shape := ⟨4, ![4, 1, 256, 128]⟩
abbrev S4x256x256x384 : Shape := ⟨4, ![4, 256, 256, 384]⟩
abbrev S4x256x256x256 : Shape := ⟨4, ![4, 256, 256, 256]⟩
abbrev S1x1x1x256 : Shape := ⟨4, ![1, 1, 1, 256]⟩
abbrev S4x256x256x1 : Shape := ⟨4, ![4, 256, 256, 1]⟩
abbrev S1x1x1x1 : Shape := ⟨4, ![1, 1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S128x128, .f32⟩
  | .hbm, ⟨2, _⟩ => ⟨S384x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S_, .f32⟩
  | .hbm, ⟨7, _⟩ => ⟨S4x128, .f32⟩
  | .hbm, ⟨8, _⟩ => ⟨S_, .f32⟩
  | .hbm, ⟨9, _⟩ => ⟨S4x128, .f32⟩
  | .hbm, ⟨10, _⟩ => ⟨S4x128, .f32⟩
  | .hbm, ⟨11, _⟩ => ⟨S4x128, .f32⟩
  | .hbm, ⟨12, _⟩ => ⟨S4x1x1x128, .f32⟩
  | .hbm, ⟨13, _⟩ => ⟨S4x256x256x128, .f32⟩
  | .hbm, ⟨14, _⟩ => ⟨S4x256x1x128, .f32⟩
  | .hbm, ⟨15, _⟩ => ⟨S4x256x256x128, .f32⟩
  | .hbm, ⟨16, _⟩ => ⟨S4x1x256x128, .f32⟩
  | .hbm, ⟨17, _⟩ => ⟨S4x256x256x128, .f32⟩
  | .hbm, ⟨18, _⟩ => ⟨S4x256x256x384, .f32⟩
  | .hbm, ⟨19, _⟩ => ⟨S_, .f32⟩
  | .hbm, ⟨20, _⟩ => ⟨S4x256x256x384, .f32⟩
  | .hbm, ⟨21, _⟩ => ⟨S4x256x256x384, .f32⟩
  | .hbm, ⟨22, _⟩ => ⟨S4x256x256x256, .f32⟩
  | .hbm, ⟨23, _⟩ => ⟨S1x1x1x256, .f32⟩
  | .hbm, ⟨24, _⟩ => ⟨S4x256x256x256, .f32⟩
  | .hbm, ⟨25, _⟩ => ⟨S4x256x256x256, .f32⟩
  | .hbm, ⟨26, _⟩ => ⟨S_, .f32⟩
  | .hbm, ⟨27, _⟩ => ⟨S4x256x256x256, .f32⟩
  | .hbm, ⟨28, _⟩ => ⟨S4x256x256x256, .f32⟩
  | .hbm, ⟨29, _⟩ => ⟨S4x256x256x1, .f32⟩
  | .hbm, ⟨30, _⟩ => ⟨S1x1x1x1, .f32⟩
  | .hbm, ⟨31, _⟩ => ⟨S4x256x256x1, .f32⟩
  | .hbm, ⟨32, _⟩ => ⟨S4x256x256x1, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4x256x128_S4x128_d1 : S4x256x128.ReducesTo [1] S4x128
  h_S_ : 0 < S_.numel
  bcast_S_S4x128 : S_.BroadcastsInDim S4x128 (![] : Fin 0 → Fin S4x128.rank)
  bcast_S4x128_S4x1x1x128_0_3 : S4x128.BroadcastsInDim S4x1x1x128 (![0, 3] : Fin 2 → Fin S4x1x1x128.rank)
  bcast_S4x1x1x128_S4x256x256x128_0_1_2_3 : S4x1x1x128.BroadcastsInDim S4x256x256x128 (![0, 1, 2, 3] : Fin 4 → Fin S4x256x256x128.rank)
  bcast_S4x256x128_S4x256x1x128_0_1_3 : S4x256x128.BroadcastsInDim S4x256x1x128 (![0, 1, 3] : Fin 3 → Fin S4x256x1x128.rank)
  bcast_S4x256x1x128_S4x256x256x128_0_1_2_3 : S4x256x1x128.BroadcastsInDim S4x256x256x128 (![0, 1, 2, 3] : Fin 4 → Fin S4x256x256x128.rank)
  bcast_S4x256x128_S4x1x256x128_0_2_3 : S4x256x128.BroadcastsInDim S4x1x256x128 (![0, 2, 3] : Fin 3 → Fin S4x1x256x128.rank)
  bcast_S4x1x256x128_S4x256x256x128_0_1_2_3 : S4x1x256x128.BroadcastsInDim S4x256x256x128 (![0, 1, 2, 3] : Fin 4 → Fin S4x256x256x128.rank)
  concatenates_S4x256x256x128_S4x256x256x128_S4x256x256x128_S4x256x256x384_d3 : Shape.Concatenates [S4x256x256x128, S4x256x256x128, S4x256x256x128] S4x256x256x384 3
  bcast_S_S4x256x256x384 : S_.BroadcastsInDim S4x256x256x384 (![] : Fin 0 → Fin S4x256x256x384.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  bcast_S_S4x256x256x256 : S_.BroadcastsInDim S4x256x256x256 (![] : Fin 0 → Fin S4x256x256x256.rank)
  bcast_S1_S1x1x1x1_3 : S1.BroadcastsInDim S1x1x1x1 (![3] : Fin 1 → Fin S1x1x1x1.rank)
  bcast_S1x1x1x1_S4x256x256x1_0_1_2_3 : S1x1x1x1.BroadcastsInDim S4x256x256x1 (![0, 1, 2, 3] : Fin 4 → Fin S4x256x256x1.rank)
  dot_S4x128_S128x128_S4x128_1_0_0_1_n_n_wf : DotDims.WF S4x128 S128x128 S4x128 [1] [0] [0] [1] [] []
  dot_S4x256x256x384_S384x256_S4x256x256x256_3_0_012_1_n_n_wf : DotDims.WF S4x256x256x384 S384x256 S4x256x256x256 [3] [0] [0, 1, 2] [1] [] []
  dot_S4x256x256x256_S256x1_S4x256x256x1_3_0_012_1_n_n_wf : DotDims.WF S4x256x256x256 S256x1 S4x256x256x1 [3] [0] [0, 1, 2] [1] [] []

variable [Facts₀]

def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf
def dot_S4x256x256x384_S384x256_S4x256x256x256_3_0_012_1_n_n : DotDims S4x256x256x384 S384x256 S4x256x256x256 where
  lhsContracting := [3]
  rhsContracting := [0]
  lhsNonContracting := [0, 1, 2]
  rhsNonContracting := [1]
  lhsBatch := []
  rhsBatch := []
  wf := dot_S4x256x256x384_S384x256_S4x256x256x256_3_0_012_1_n_n_wf
def dot_S4x256x256x256_S256x1_S4x256x256x1_3_0_012_1_n_n : DotDims S4x256x256x256 S256x1 S4x256x256x1 where
  lhsContracting := [3]
  rhsContracting := [0]
  lhsNonContracting := [0, 1, 2]
  rhsNonContracting := [1]
  lhsBatch := []
  rhsBatch := []
  wf := dot_S4x256x256x256_S256x1_S4x256x256x1_3_0_012_1_n_n_wf

class Facts : Prop extends Facts₀ where

variable [Facts]
-- ==== Proof.Spec.lean ====
/-
  The readout layer as one function of its six argument arrays, on the extended reals.

  For a batch b and a pair of nodes (i, j) the layer feeds relu (concat (pooled b, x b i, x b j)) through a 384 → 256
  linear map with bias, a relu, and a 256 → 1 linear map with bias; pooled b is the node mean of x b through a
  128 → 128 linear map. The 384-term contraction is written here the way the kernel groups it: three 128-term
  contractions against the three row bands of W1 — the pooled band (rows 0..127), the band of node i (rows
  128..255) and the band of node j (rows 256..383) — added as (I + (P + b1)) + J.
-/
import Idealize.ShloMosaic.PureOps.Ideal
import Idealize.ShloMosaic.Lib.ValueIdx

noncomputable section

namespace Cert.Readout

open Idealize.ShloMosaic Idealize.ShloMosaic.ValueIdx

/-- The rectifier on the extended reals. -/
def relu (a : EReal) : EReal := max a 0

/-- Row k of W1's pooled band, of node i's band, of node j's band. -/
abbrev rowP (k : Fin 128) : Fin 384 := ⟨k.val, by have := k.isLt; omega⟩
abbrev rowI (k : Fin 128) : Fin 384 := ⟨128 + k.val, by have := k.isLt; omega⟩
abbrev rowJ (k : Fin 128) : Fin 384 := ⟨256 + k.val, by have := k.isLt; omega⟩

variable (x : (⟨3, ![4, 256, 128]⟩ : Shape).Idx → EReal) (wp : (⟨2, ![128, 128]⟩ : Shape).Idx → EReal)
  (w1 : (⟨2, ![384, 256]⟩ : Shape).Idx → EReal) (b1 : (⟨1, ![256]⟩ : Shape).Idx → EReal)
  (w2 : (⟨2, ![256, 1]⟩ : Shape).Idx → EReal) (b2 : (⟨1, ![1]⟩ : Shape).Idx → EReal)

/-- The mean over the 256 nodes of batch b, feature f: the node sum divided by the float 256. -/
def mean (b : Fin 4) (f : Fin 128) : EReal :=
  Ideal.div (∑ n : Fin 256, x (ix3 b n f)) (Ideal.ofBits .f32 0x43800000#32)

/-- The pooled context of batch b: the mean through the 128 → 128 map. -/
def pooled (b : Fin 4) (k : Fin 128) : EReal := ∑ f : Fin 128, mean x b f * wp (ix2 f k)

/-- The rectified pooled context against W1's pooled band. -/
def projP (b : Fin 4) (h : Fin 256) : EReal := ∑ k : Fin 128, relu (pooled x wp b k) * w1 (ix2 (rowP k) h)

/-- The rectified embedding of node i against its band of W1 (rows 128 + k). -/
def projI (b : Fin 4) (i : Fin 256) (h : Fin 256) : EReal := ∑ k : Fin 128, relu (x (ix3 b i k)) * w1 (ix2 (rowI k) h)

/-- The rectified embedding of node j against its band of W1 (rows 256 + k). -/
def projJ (b : Fin 4) (j : Fin 256) (h : Fin 256) : EReal := ∑ k : Fin 128, relu (x (ix3 b j k)) * w1 (ix2 (rowJ k) h)

/-- The per-batch vector the kernel keeps: the pooled projection plus the first bias. -/
def pv (b : Fin 4) (h : Fin 256) : EReal := projP x wp w1 b h + b1 (ix1 h)

/-- The layer's output at batch b, nodes (i, j). -/
def out (b : Fin 4) (i j : Fin 256) : EReal :=
  (∑ h : Fin 256, relu ((projI x w1 b i h + pv x wp w1 b1 b h) + projJ x w1 b j h) * w2 (ix2 h 0)) + b2 (ix1 0)

/-- The result array, [4, 256, 256, 1]. -/
def G : (⟨4, ![4, 256, 256, 1]⟩ : Shape).Idx → EReal := fun y => out x wp w1 b1 w2 b2 (y 0) (y 1) (y 2)

end Cert.Readout

end
-- ==== Proof.RefLaw.lean ====
/-
  Two laws of a commutative additive monoid, used to regroup the 384-term contraction of the readout layer.

  The index set Fin 384 is cut into three consecutive bands of 128 indices: k, 128 + k and 256 + k for k < 128.
  A sum over Fin 384 is the sum of the three band sums; and four summands p, i, j, b added as ((p + i) + j) + b
  are the same as (i + (p + b)) + j. Only commutativity and associativity of + are used.
-/
import Mathlib.Algebra.BigOperators.Fin
import Mathlib.Tactic.Abel
import proofs.«120673_j67302137528973_2_alg».proof.Proof.Spec

open scoped BigOperators

namespace Cert.Readout.Ref

open Cert.Readout

/-- A sum over 384 indices is the sum over the three bands of 128: indices k, 128 + k and 256 + k. -/
theorem sum_bands {M : Type*} [AddCommMonoid M] (f : Fin 384 → M) :
    ∑ k : Fin 384, f k
      = (∑ k : Fin 128, f (rowP k)) + (∑ k : Fin 128, f (rowI k)) + ∑ k : Fin 128, f (rowJ k) := by
  -- 384 = 128 + (128 + 128): cut off the first 128 indices, then the next 128
  have h : ∑ k : Fin (128 + (128 + 128)), f k
      = ∑ k : Fin 128, f (Fin.castAdd (128 + 128) k)
        + (∑ k : Fin 128, f (Fin.natAdd 128 (Fin.castAdd 128 k))
          + ∑ k : Fin 128, f (Fin.natAdd 128 (Fin.natAdd 128 k))) := by
    rw [Fin.sum_univ_add, Fin.sum_univ_add (fun k : Fin (128 + 128) => f (Fin.natAdd 128 k))]
  -- the three re-indexings are the three bands
  have eP : ∀ k : Fin 128, (Fin.castAdd (128 + 128) k : Fin 384) = rowP k := fun k => Fin.ext rfl
  have eI : ∀ k : Fin 128, (Fin.natAdd 128 (Fin.castAdd 128 k) : Fin 384) = rowI k := fun k => Fin.ext rfl
  have eJ : ∀ k : Fin 128, (Fin.natAdd 128 (Fin.natAdd 128 k) : Fin 384) = rowJ k := fun k =>
    Fin.ext (by show 128 + (128 + k.val) = 256 + k.val; omega)
  calc ∑ k : Fin 384, f k
      = ∑ k : Fin 128, f (Fin.castAdd (128 + 128) k)
        + (∑ k : Fin 128, f (Fin.natAdd 128 (Fin.castAdd 128 k))
          + ∑ k : Fin 128, f (Fin.natAdd 128 (Fin.natAdd 128 k))) := h
    _ = (∑ k : Fin 128, f (rowP k)) + ((∑ k : Fin 128, f (rowI k)) + ∑ k : Fin 128, f (rowJ k)) := by
        simp only [eP, eI, eJ]
    _ = _ := (add_assoc _ _ _).symm

/-- Four summands regrouped: ((p + i) + j) + b = (i + (p + b)) + j. -/
theorem regroup {M : Type*} [AddCommMonoid M] (p i j b : M) : (p + i + j) + b = (i + (p + b)) + j := by
  abel

end Cert.Readout.Ref
-- ==== Proof.RefSide.lean ====
/-
  The reference program computes the readout layer G.

  The program is read one operation at a time (the generated module gives every stage at an index); the stages are
  identified, from the inputs up, with the quantities of the specification:
    the float sum and the division      — the node mean,
    the first contraction               — the pooled context,
    the concatenation along the last axis — at column k, 128 + k, 256 + k it is the pooled context, the embedding of
                                          node i and the embedding of node j at feature k,
    the 384-term contraction            — split into its three bands of 128 rows, it is projP + projI + projJ,
    the bias and the second rectifier   — regrouped as (projI + (projP + b1)) + projJ,
    the 256-term contraction and bias   — the output.
  Nothing but commutativity and associativity of + on the extended reals is used; 0 + a = a removes the sum's
  initial value, and the rectifier's constant is the zero word.
-/
import proofs.«120673_j67302137528973_2_alg».proof.Proof.Gen.ReferenceIdeal.Read
import proofs.«120673_j67302137528973_2_alg».proof.Proof.Spec
import proofs.«120673_j67302137528973_2_alg».proof.Proof.RefLaw
import Idealize.ShloMosaic.Lib.Pipeline.Value
import Idealize.ShloMosaic.Lib.ValueIdx
import Idealize.ShloMosaic.PureOps.Ideal.Laws

noncomputable section

open scoped BigOperators

namespace Cert.Readout.Ref

open Cert.ReferenceIdeal Cert.ReferenceIdeal.Gen Cert.ReferenceIdeal.Read Cert.Readout
open Idealize.ShloMosaic Idealize.ShloMosaic.TcCoe Idealize.SL.Sem Idealize.ShloMosaic.ValueIdx

variable (x0 : (⟨S4x256x128, .f32⟩ : BufTy).Contents (Elt Ideal)) (x1 : (⟨S128x128, .f32⟩ : BufTy).Contents (Elt Ideal))
  (x2 : (⟨S384x256, .f32⟩ : BufTy).Contents (Elt Ideal)) (x3 : (⟨S256, .f32⟩ : BufTy).Contents (Elt Ideal))
  (x4 : (⟨S256x1, .f32⟩ : BufTy).Contents (Elt Ideal)) (x5 : (⟨S1, .f32⟩ : BufTy).Contents (Elt Ideal))

/-! ## The mean and the pooled context -/

/-- The float sum over the nodes (initial value the zero word) divided by the broadcast 256.0 is the mean. -/
theorem v2_eq (b : Fin 4) (f : Fin 128) : val_main_v2 (F := Ideal) x0 (ix2 b f) = mean x0 b f := by
  rw [val_main_v2_apply, val_main_v0_apply, val_main_v1_apply, val_main_cst_apply, val_main_cst_0_apply]
  simp only [Ideal.hostDivf_def, Ideal.ofBits_def, Ideal.ofBits_zero_f32, zero_add]
  unfold mean
  refine congrArg (Ideal.div · _) (Finset.sum_congr rfl fun n _ => congrArg x0 ?_)
  funext a
  match a with
  | ⟨0, _⟩ => rfl
  | ⟨1, _⟩ => rfl
  | ⟨2, _⟩ => rfl

/-- The first contraction, of the mean against the 128 → 128 map, is the pooled context. -/
theorem v3_eq (b : Fin 4) (k : Fin 128) : val_main_v3 (F := Ideal) x0 x1 (ix2 b k) = pooled x0 x1 b k := by
  rw [val_main_v3_apply]
  unfold pooled
  refine Finset.sum_congr rfl fun f _ => ?_
  have el : lidx_main_v3 (ix2 b k) f = ix2 b f := funext fun a => by
    match a with
    | ⟨0, _⟩ => rfl
    | ⟨1, _⟩ => rfl
  have er : ridx_main_v3 (ix2 b k) f = ix2 f k := funext fun a => by
    match a with
    | ⟨0, _⟩ => rfl
    | ⟨1, _⟩ => rfl
  rw [el, er, v2_eq]

/-! ## The three pieces of the concatenation, each at an index -/

/-- The pooled context broadcast over both node axes. -/
theorem v5_eq (b : Fin 4) (i j : Fin 256) (k : Fin 128) :
    val_main_v5 (F := Ideal) x0 x1 (ix4 b i j k) = pooled x0 x1 b k := by
  rw [val_main_v5_apply, val_main_v4_apply]
  have e : idx_main_v4 (idx_main_v5 (ix4 b i j k)) = ix2 b k := funext fun a => by
    match a with
    | ⟨0, _⟩ => rfl
    | ⟨1, _⟩ => rfl
  rw [e, v3_eq]

/-- The embeddings broadcast over the second node axis: node i's. -/
theorem v7_eq (b : Fin 4) (i j : Fin 256) (k : Fin 128) :
    val_main_v7 (F := Ideal) x0 (ix4 b i j k) = x0 (ix3 b i k) := by
  rw [val_main_v7_apply, val_main_v6_apply]
  refine congrArg x0 (funext fun a => ?_)
  match a with
  | ⟨0, _⟩ => rfl
  | ⟨1, _⟩ => rfl
  | ⟨2, _⟩ => rfl

/-- The embeddings broadcast over the first node axis: node j's. -/
theorem v9_eq (b : Fin 4) (i j : Fin 256) (k : Fin 128) :
    val_main_v9 (F := Ideal) x0 (ix4 b i j k) = x0 (ix3 b j k) := by
  rw [val_main_v9_apply, val_main_v8_apply]
  refine congrArg x0 (funext fun a => ?_)
  match a with
  | ⟨0, _⟩ => rfl
  | ⟨1, _⟩ => rfl
  | ⟨2, _⟩ => rfl

/-! ## The concatenation along the last axis -/

/-- The three joined pieces as a function of their position. -/
def pieces (n : Fin 3) : S4x256x256x128.Idx → EReal :=
  match n with
  | ⟨0, _⟩ => val_main_v5 (F := Ideal) x0 x1
  | ⟨1, _⟩ => val_main_v7 (F := Ideal) x0
  | ⟨2, _⟩ => val_main_v9 (F := Ideal) x0

/-- The concatenation at column c of the last axis is piece c / 128 at column c % 128, the other coordinates kept. -/
theorem v10_apply (b : Fin 4) (i j : Fin 256) (c : Fin 384) (n : Fin 3) (k : Fin 128)
    (hn : c.val / 128 = n.val) (hk : k.val = c.val % 128) :
    val_main_v10 (F := Ideal) x0 x1 (ix4 b i j c) = pieces x0 x1 n (ix4 b i j k) := by
  unfold val_main_v10
  show concatenate S4x256x256x384 3
      (List.ofFn fun n : Fin 3 => (⟨S4x256x256x128, pieces x0 x1 n⟩ : (s : Shape) × (s.Idx → EReal)))
      concatenates_S4x256x256x128_S4x256x256x128_S4x256x256x128_S4x256x256x384_d3 (ix4 b i j c) = _
  refine concatenate_ofFn_apply (t := S4x256x256x384) (s₁ := S4x256x256x128) 3 (pieces x0 x1) _ rfl 128 rfl
    (ix4 b i j c) n hn (ix4 b i j k) hk (fun a ha => ?_)
  match a with
  | ⟨0, _⟩ => rfl
  | ⟨1, _⟩ => rfl
  | ⟨2, _⟩ => rfl
  | ⟨3, _⟩ => exact absurd rfl ha

/-- Columns 0..127 hold the pooled context. -/
theorem v10_P (b : Fin 4) (i j : Fin 256) (k : Fin 128) :
    val_main_v10 (F := Ideal) x0 x1 (ix4 b i j (rowP k)) = pooled x0 x1 b k := by
  rw [v10_apply x0 x1 b i j (rowP k) 0 k (by show k.val / 128 = 0; have := k.isLt; omega)
    (by show k.val = k.val % 128; have := k.isLt; omega)]
  exact v5_eq x0 x1 b i j k

/-- Columns 128..255 hold the embedding of node i. -/
theorem v10_I (b : Fin 4) (i j : Fin 256) (k : Fin 128) :
    val_main_v10 (F := Ideal) x0 x1 (ix4 b i j (rowI k)) = x0 (ix3 b i k) := by
  rw [v10_apply x0 x1 b i j (rowI k) 1 k (by show (128 + k.val) / 128 = 1; have := k.isLt; omega)
    (by show k.val = (128 + k.val) % 128; have := k.isLt; omega)]
  exact v7_eq x0 b i j k

/-- Columns 256..383 hold the embedding of node j. -/
theorem v10_J (b : Fin 4) (i j : Fin 256) (k : Fin 128) :
    val_main_v10 (F := Ideal) x0 x1 (ix4 b i j (rowJ k)) = x0 (ix3 b j k) := by
  rw [v10_apply x0 x1 b i j (rowJ k) 2 k (by show (256 + k.val) / 128 = 2; have := k.isLt; omega)
    (by show k.val = (256 + k.val) % 128; have := k.isLt; omega)]
  exact v9_eq x0 b i j k

/-! ## The first rectifier and the 384-term contraction -/

/-- The maximum with the broadcast zero word is the rectifier. -/
theorem v11_eq (y : S4x256x256x384.Idx) :
    val_main_v11 (F := Ideal) x0 x1 y = relu (val_main_v10 (F := Ideal) x0 x1 y) := by
  rw [val_main_v11_apply, val_main_call0_v0_apply, val_main_call0_cst_apply]
  simp only [Ideal.maximumf_def, Ideal.ofBits_def, Ideal.ofBits_zero_f32]
  rfl

/-- The 384-term contraction, band by band. -/
theorem v12_eq (b : Fin 4) (i j h : Fin 256) :
    val_main_v12 (F := Ideal) x0 x1 x2 (ix4 b i j h)
      = projP x0 x1 x2 b h + projI x0 x2 b i h + projJ x0 x2 b j h := by
  have el : ∀ c : Fin 384, lidx_main_v12 (ix4 b i j h) c = ix4 b i j c := fun c => funext fun a => by
    match a with
    | ⟨0, _⟩ => rfl
    | ⟨1, _⟩ => rfl
    | ⟨2, _⟩ => rfl
    | ⟨3, _⟩ => rfl
  have er : ∀ c : Fin 384, ridx_main_v12 (ix4 b i j h) c = ix2 c h := fun c => funext fun a => by
    match a with
    | ⟨0, _⟩ => rfl
    | ⟨1, _⟩ => rfl
  rw [val_main_v12_apply, sum_bands]
  unfold projP projI projJ
  refine congrArg₂ (· + ·) (congrArg₂ (· + ·) (Finset.sum_congr rfl fun k _ => ?_)
    (Finset.sum_congr rfl fun k _ => ?_)) (Finset.sum_congr rfl fun k _ => ?_)
  · rw [el, er, v11_eq, v10_P]
  · rw [el, er, v11_eq, v10_I]
  · rw [el, er, v11_eq, v10_J]

/-! ## The first bias, the second rectifier, the 256-term contraction and the second bias -/

/-- The biased hidden layer through the rectifier, with the four summands regrouped. -/
theorem v16_eq (b : Fin 4) (i j h : Fin 256) :
    val_main_v16 (F := Ideal) x0 x1 x2 x3 (ix4 b i j h)
      = relu ((projI x0 x2 b i h + pv x0 x1 x2 x3 b h) + projJ x0 x2 b j h) := by
  have e : idx_main_v13 (idx_main_v14 (ix4 b i j h)) = ix1 h := funext fun a => by
    match a with
    | ⟨0, _⟩ => rfl
  rw [val_main_v16_apply, val_main_v15_apply, val_main_call1_v0_apply, val_main_call1_cst_apply,
    val_main_v14_apply, val_main_v13_apply, e, v12_eq]
  simp only [Ideal.maximumf_def, Ideal.addf_def, Ideal.ofBits_def, Ideal.ofBits_zero_f32]
  unfold pv relu
  rw [regroup]

/-- The reference program's result is the readout layer. -/
theorem ref_eq (x0 : (⟨Cert.ReferenceIdeal.S4x256x128, .f32⟩ : BufTy).Contents (Elt Ideal)) (x1 : (⟨Cert.ReferenceIdeal.S128x128, .f32⟩ : BufTy).Contents (Elt Ideal))
    (x2 : (⟨Cert.ReferenceIdeal.S384x256, .f32⟩ : BufTy).Contents (Elt Ideal)) (x3 : (⟨Cert.ReferenceIdeal.S256, .f32⟩ : BufTy).Contents (Elt Ideal))
    (x4 : (⟨Cert.ReferenceIdeal.S256x1, .f32⟩ : BufTy).Contents (Elt Ideal)) (x5 : (⟨Cert.ReferenceIdeal.S1, .f32⟩ : BufTy).Contents (Elt Ideal)) :
    Cert.ReferenceIdeal.Read.val_main_v20 (F := Ideal) x0 x1 x2 x3 x4 x5 = Cert.Readout.G x0 x1 x2 x3 x4 x5 := by
  funext y
  obtain ⟨b, i, j, o, rfl⟩ : ∃ (b : Fin 4) (i j : Fin 256) (o : Fin 1), y = ix4 b i j o :=
    ⟨y 0, y 1, y 2, y 3, eq_ix4 y⟩
  obtain rfl : o = 0 := Subsingleton.elim _ _
  have el : ∀ h : Fin 256, lidx_main_v17 (ix4 b i j (0 : Fin 1)) h = ix4 b i j h := fun h => funext fun a => by
    match a with
    | ⟨0, _⟩ => rfl
    | ⟨1, _⟩ => rfl
    | ⟨2, _⟩ => rfl
    | ⟨3, _⟩ => rfl
  have er : ∀ h : Fin 256, ridx_main_v17 (ix4 b i j (0 : Fin 1)) h = ix2 h (0 : Fin 1) := fun h => funext fun a => by
    match a with
    | ⟨0, _⟩ => rfl
    | ⟨1, _⟩ => rfl
  have e5 : idx_main_v18 (idx_main_v19 (ix4 b i j (0 : Fin 1))) = ix1 (0 : Fin 1) := funext fun a => by
    match a with
    | ⟨0, _⟩ => rfl
  rw [val_main_v20_apply, val_main_v17_apply, val_main_v19_apply, val_main_v18_apply, e5]
  simp only [Ideal.addf_def, el, er, v16_eq]
  rfl

end Cert.Readout.Ref

end
-- ==== Proof.Arrays.lean ====
/-
  The arrays the pipelined region finds: the four host operations in front of it cut W1 into its three 128-row bands
  (rows 0.., 128.., 256..) and read the 256 × 1 matrix W2 as a vector; the other four windows' arrays are argument
  arrays untouched.
-/
import proofs.«120673_j67302137528973_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.Readout.Arrays

open Cert.KernelIdeal Cert.KernelIdeal.Gen

open Idealize.ShloMosaic.ValueIdx Idealize.ShloMosaic.StableHlo

variable {F : FTy → Type} [FloatOps F]
variable (m : (ℓ : Loc nD τ sig) → Buf (Elt F) ℓ)

/-- W1's pooled band as the region finds it. -/
theorem V_v0 (c : Dev nD) : (V m c main_v0 : S128x256.Idx → Elt F .f32)
    = extractStridedSlice S128x256 ![0, 0] (m ((c : Thread nD τ).loc main_arg2)) slices_S384x256_S128x256_0_0 := by
  show StableHlo.after hostOps0 (fun b => m (c, b)) (Proc.devRef .tc main_v0) = _
  after_results

/-- W1's band of node i. -/
theorem V_v1 (c : Dev nD) : (V m c main_v1 : S128x256.Idx → Elt F .f32)
    = extractStridedSlice S128x256 ![128, 0] (m ((c : Thread nD τ).loc main_arg2)) slices_S384x256_S128x256_128_0 := by
  show StableHlo.after hostOps0 (fun b => m (c, b)) (Proc.devRef .tc main_v1) = _
  after_results

/-- W1's band of node j. -/
theorem V_v2 (c : Dev nD) : (V m c main_v2 : S128x256.Idx → Elt F .f32)
    = extractStridedSlice S128x256 ![256, 0] (m ((c : Thread nD τ).loc main_arg2)) slices_S384x256_S128x256_256_0 := by
  show StableHlo.after hostOps0 (fun b => m (c, b)) (Proc.devRef .tc main_v2) = _
  after_results

/-- W2 read as a vector. -/
theorem V_v3 (c : Dev nD) : (V m c main_v3 : S256.Idx → Elt F .f32)
    = shapeCast S256 (m ((c : Thread nD τ).loc main_arg4)) shapeCasts_S256x1_S256 := by
  show StableHlo.after hostOps0 (fun b => m (c, b)) (Proc.devRef .tc main_v3) = _
  after_results
  rfl

end Cert.Readout.Arrays

end
-- ==== Proof.Pieces.lean ====
/-
  What one run of the kernel body leaves behind, as values of the blocks it was given.

  At the first row tile of a batch (the grid's second coordinate is 0) the body fills its two carried buffers — the
  node-j projection of the whole batch block, and the per-batch row (pooled projection plus bias) — and then, as at
  every other point, computes the output tile from a 64-row tile of the batch block and those two buffers. Each
  buffer is written by ONE store through its whole rectangle, and every load is through a whole rectangle except the
  row tile's, so what is left is the store's payload of the loaded blocks.
-/
import proofs.«120673_j67302137528973_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Readout.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The 64-row tile of a batch block the body loads at a point: rows 64·i₁ … 64·i₁ + 63, i₁ the point's second
    coordinate. -/
def rowTile (i : grid0.Coords) (x0 : Vec F S1x256x128 .f32) : Vec F S1x64x128 .f32 :=
  View.ld x0 (Rect.unit (s := S1x256x128) (k0_off1 i) S1x64x128.size (k0_off1_inb i))

/-- At a batch's first tile the first carried buffer is left at the node-j projection of the batch block. -/
theorem termj_A (c : Dev nD) (i : grid0.Coords) (arg2 : Memref sig .tc .vmem S1x256x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256 .f32) (harg8 : arg8.IsWhole) (arg9 : Memref sig .tc .vmem S1 .f32) (harg9 : arg9.IsWhole) (arg10 : Memref sig .tc .vmem S1x64x256 .f32) (harg10 : arg10.IsWhole) (arg11 : Memref sig .tc .vmem S256x256 .f32) (harg11 : arg11.IsWhole) (arg12 : Memref sig .tc .vmem S1x256 .f32) (harg12 : arg12.IsWhole) (hc0 : cond0_0 i) (x0 : Vec F S1x256x128 .f32) (x1 : Vec F S128x256 .f32) (x2 : Vec F S128x256 .f32) (x3 : Vec F S128x128 .f32) (x4 : Vec F S128x256 .f32) (x5 : Vec F S256 .f32) (x6 : Vec F S256 .f32) (x7 : Vec F S1 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay2 x0 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg4.read_unread, View.ld_unit_zero (S := S1x256x128) hz3,
    View.ld_unit_zero (S := S128x256) hz2]

/-- … and the second at the per-batch row. -/
theorem pv_A (c : Dev nD) (i : grid0.Coords) (arg2 : Memref sig .tc .vmem S1x256x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256 .f32) (harg8 : arg8.IsWhole) (arg9 : Memref sig .tc .vmem S1 .f32) (harg9 : arg9.IsWhole) (arg10 : Memref sig .tc .vmem S1x64x256 .f32) (harg10 : arg10.IsWhole) (arg11 : Memref sig .tc .vmem S256x256 .f32) (harg11 : arg11.IsWhole) (arg12 : Memref sig .tc .vmem S1x256 .f32) (harg12 : arg12.IsWhole) (hc0 : cond0_0 i) (x0 : Vec F S1x256x128 .f32) (x1 : Vec F S128x256 .f32) (x2 : Vec F S128x256 .f32) (x3 : Vec F S128x128 .f32) (x4 : Vec F S128x256 .f32) (x5 : Vec F S256 .f32) (x6 : Vec F S256 .f32) (x7 : Vec F S1 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay3 x0 x3 x4 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg5.read_unread, harg6.read_unread, harg7.read_unread,
    View.ld_unit_zero (S := S1x256x128) hz3, View.ld_unit_zero (S := S128x128) hz2,
    View.ld_unit_zero (S := S128x256) hz2, View.ld_unit_zero (S := S256) hz1]

/-- The output tile at a batch's first point: computed from the two buffers just filled. -/
theorem out_A (c : Dev nD) (i : grid0.Coords) (arg2 : Memref sig .tc .vmem S1x256x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256 .f32) (harg8 : arg8.IsWhole) (arg9 : Memref sig .tc .vmem S1 .f32) (harg9 : arg9.IsWhole) (arg10 : Memref sig .tc .vmem S1x64x256 .f32) (harg10 : arg10.IsWhole) (arg11 : Memref sig .tc .vmem S256x256 .f32) (harg11 : arg11.IsWhole) (arg12 : Memref sig .tc .vmem S1x256 .f32) (harg12 : arg12.IsWhole) (hc0 : cond0_0 i) (x0 : Vec F S1x256x128 .f32) (x1 : Vec F S128x256 .f32) (x2 : Vec F S128x256 .f32) (x3 : Vec F S128x128 .f32) (x4 : Vec F S128x256 .f32) (x5 : Vec F S256 .f32) (x6 : Vec F S256 .f32) (x7 : Vec F S1 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay4 (rowTile i x0) x1 (k0_pay3 x0 x3 x4 x5) (k0_pay2 x0 x2) x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  simp only [View.readCov_unit_zero (S := S1x256) _ hz2, View.readCov_unit_zero (S := S256x256) _ hz2,
    View.readAt_eq_ld, harg2.read_unread, harg3.read_unread, harg4.read_unread, harg5.read_unread, harg6.read_unread,
    harg7.read_unread, harg8.read_unread, harg9.read_unread,
    View.ld_unit_zero (S := S1x256x128) hz3, View.ld_unit_zero (S := S128x128) hz2,
    View.ld_unit_zero (S := S128x256) hz2, View.ld_unit_zero (S := S256) hz1, View.ld_unit_zero (S := S1) hz1]
  rfl

/-- The output tile at any other point: computed from what the carried buffers hold. -/
theorem out_B (c : Dev nD) (i : grid0.Coords) (arg2 : Memref sig .tc .vmem S1x256x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S128x256 .f32) (harg6 : arg6.IsWhole) (arg7 : Memref sig .tc .vmem S256 .f32) (harg7 : arg7.IsWhole) (arg8 : Memref sig .tc .vmem S256 .f32) (harg8 : arg8.IsWhole) (arg9 : Memref sig .tc .vmem S1 .f32) (harg9 : arg9.IsWhole) (arg10 : Memref sig .tc .vmem S1x64x256 .f32) (harg10 : arg10.IsWhole) (arg11 : Memref sig .tc .vmem S256x256 .f32) (harg11 : arg11.IsWhole) (arg12 : Memref sig .tc .vmem S1x256 .f32) (harg12 : arg12.IsWhole) (hc0 : ¬cond0_0 i) (x0 : Vec F S1x256x128 .f32) (x1 : Vec F S128x256 .f32) (x2 : Vec F S128x256 .f32) (x3 : Vec F S128x128 .f32) (x4 : Vec F S128x256 .f32) (x5 : Vec F S256 .f32) (x6 : Vec F S256 .f32) (x7 : Vec F S1 .f32) (xs0 : Vec F S256x256 .f32) (xs1 : Vec F S1x256 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = k0_pay4 (rowTile i x0) x1 xs1 xs0 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz3]
  simp only [View.readAt_eq_ld, harg2.read_unread, harg3.read_unread, harg8.read_unread, harg9.read_unread,
    harg11.read_unread, harg12.read_unread,
    View.ld_unit_zero (S := S256x256) hz2, View.ld_unit_zero (S := S1x256) hz2,
    View.ld_unit_zero (S := S128x256) hz2, View.ld_unit_zero (S := S256) hz1, View.ld_unit_zero (S := S1) hz1]
  rfl

end Cert.Readout.Pieces

end
-- ==== Proof.Blocks.lean ====
/-
  The blocks a grid point sees, read at coordinates.

  The grid has 16 points; point t works on batch t / 4 and on row tile t % 4 of it. Its block of the embeddings is the
  whole 256 × 128 slab of batch t / 4; the three bands of W1, W_pool, b1, W2 (as a vector) and b2 come whole; the row
  tile the body loads is rows 64·(t % 4) … of the slab; and its output block is rows 64·(t % 4) … of batch t / 4.
-/
import proofs.«120673_j67302137528973_2_alg».proof.Proof.Arrays
import proofs.«120673_j67302137528973_2_alg».proof.Proof.Spec
import proofs.«120673_j67302137528973_2_alg».proof.Proof.Pieces
import Idealize.ShloMosaic.Lib.ValueLayout

set_option maxRecDepth 16384

noncomputable section

open Idealize.ShloMosaic Idealize.ShloMosaic.TcCoe Idealize.SL.Sem
open Idealize.ShloMosaic.Pipeline (Dat)

namespace Cert.Readout.Blocks

open Cert.KernelIdeal Cert.KernelIdeal.Gen

open Idealize.ShloMosaic.ValueIdx Cert.Readout Cert.Readout.Arrays Cert.Readout.Pieces

variable {F : FTy → Type} [FloatOps F]
variable (m : (ℓ : Loc nD τ sig) → Buf (Elt F) ℓ)

theorem N16 : cfg0.N = 16 := N_0

/-- The batch a point works on, its row tile, and row r of that tile as a row of the batch. -/
def batchOf (t : Fin cfg0.N) : Fin 4 := ⟨t.val / 4, by have := t.isLt; have := N16; omega⟩
def rowOf (t : Fin cfg0.N) (r : Fin 64) : Fin 256 := ⟨64 * (t.val % 4) + r.val, by have := r.isLt; omega⟩

/-- The printed index maps, decided over the grid: the embeddings' and the output's blocks move with the batch (and the
    output's with the row tile), every other window's block index is zero, and the row tile starts at 64·(t % 4). -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 3) = t.val / 4 ∧ win0_8.index t (1 : Fin 3) = t.val % 4 ∧ win0_8.index t (2 : Fin 3) = 0
    ∧ k0_off1 (grid0.coords t) (0 : Fin 3) = 0 ∧ k0_off1 (grid0.coords t) (1 : Fin 3) = 64 * (t.val % 4)
    ∧ k0_off1 (grid0.coords t) (2 : Fin 3) = 0 :=
  (by decide +kernel : ∀ t : Fin grid0.N, _)

/-- The embeddings' block at point t is batch t / 4. -/
theorem blk0 (c : Dev nD) (t : Fin cfg0.N) (n : Fin 256) (f : Fin 128) :
    iblk m c 0 t (ix3 0 n f) = m ((c : Thread nD τ).loc main_arg0) (ix3 (batchOf t) n f) := by
  show V m c main_arg0 (((cfg0.win 0).blk t).view.emb (ix3 0 n f)) = _
  rw [V_main_arg0]
  refine congrArg _ (funext fun a => Fin.ext ?_)
  obtain ⟨e0, e1, e2, -⟩ := idx_facts t
  match a with
  | ⟨0, _⟩ => show win0_0.index t (0 : Fin 3) * 1 + 1 * 0 = t.val / 4; omega
  | ⟨1, _⟩ => show win0_0.index t (1 : Fin 3) * 256 + 1 * n.val = n.val; omega
  | ⟨2, _⟩ => show win0_0.index t (2 : Fin 3) * 128 + 1 * f.val = f.val; omega

/-- W1's band of node i comes whole: its row k is row 128 + k of W1. -/
theorem blk1 (c : Dev nD) (t : Fin cfg0.N) (k : Fin 128) (h : Fin 256) :
    iblk m c 1 t (ix2 k h) = m ((c : Thread nD τ).loc main_arg2) (ix2 (rowI k) h) := by
  show V m c main_v1 (((cfg0.win 1).blk t).view.emb (ix2 k h)) = _
  rw [V_v1]
  obtain ⟨-, -, -, e10, e11, e20, e21, -, -, e40, e41, -⟩ := idx_facts t
  refine extractStridedSlice_apply _ _ _ _ _ (fun a => ?_)
  match a with
  | ⟨0, _⟩ => show 128 + k.val = 128 + (win0_1.index t (0 : Fin 2) * 128 + 1 * k.val); omega
  | ⟨1, _⟩ => show h.val = 0 + (win0_1.index t (1 : Fin 2) * 256 + 1 * h.val); omega

/-- W1's band of node j: row 256 + k of W1. -/
theorem blk2 (c : Dev nD) (t : Fin cfg0.N) (k : Fin 128) (h : Fin 256) :
    iblk m c 2 t (ix2 k h) = m ((c : Thread nD τ).loc main_arg2) (ix2 (rowJ k) h) := by
  show V m c main_v2 (((cfg0.win 2).blk t).view.emb (ix2 k h)) = _
  rw [V_v2]
  obtain ⟨-, -, -, e10, e11, e20, e21, -, -, e40, e41, -⟩ := idx_facts t
  refine extractStridedSlice_apply _ _ _ _ _ (fun a => ?_)
  match a with
  | ⟨0, _⟩ => show 256 + k.val = 256 + (win0_2.index t (0 : Fin 2) * 128 + 1 * k.val); omega
  | ⟨1, _⟩ => show h.val = 0 + (win0_2.index t (1 : Fin 2) * 256 + 1 * h.val); omega

/-- W1's pooled band: row k of W1. -/
theorem blk4 (c : Dev nD) (t : Fin cfg0.N) (k : Fin 128) (h : Fin 256) :
    iblk m c 4 t (ix2 k h) = m ((c : Thread nD τ).loc main_arg2) (ix2 (rowP k) h) := by
  show V m c main_v0 (((cfg0.win 4).blk t).view.emb (ix2 k h)) = _
  rw [V_v0]
  obtain ⟨-, -, -, e10, e11, e20, e21, -, -, e40, e41, -⟩ := idx_facts t
  refine extractStridedSlice_apply _ _ _ _ _ (fun a => ?_)
  match a with
  | ⟨0, _⟩ => show k.val = 0 + (win0_4.index t (0 : Fin 2) * 128 + 1 * k.val); omega
  | ⟨1, _⟩ => show h.val = 0 + (win0_4.index t (1 : Fin 2) * 256 + 1 * h.val); omega

/-- W_pool comes whole. -/
theorem blk3 (c : Dev nD) (t : Fin cfg0.N) (f k : Fin 128) :
    iblk m c 3 t (ix2 f k) = m ((c : Thread nD τ).loc main_arg1) (ix2 f k) := by
  show V m c main_arg1 (((cfg0.win 3).blk t).view.emb (ix2 f k)) = _
  rw [V_main_arg1]
  obtain ⟨-, -, -, -, -, -, -, e30, e31, -⟩ := idx_facts t
  refine congrArg _ (funext fun a => Fin.ext ?_)
  match a with
  | ⟨0, _⟩ => show win0_3.index t (0 : Fin 2) * 128 + 1 * f.val = f.val; omega
  | ⟨1, _⟩ => show win0_3.index t (1 : Fin 2) * 128 + 1 * k.val = k.val; omega

/-- The first bias comes whole. -/
theorem blk5 (c : Dev nD) (t : Fin cfg0.N) (h : Fin 256) :
    iblk m c 5 t (ix1 h) = m ((c : Thread nD τ).loc main_arg3) (ix1 h) := by
  show V m c main_arg3 (((cfg0.win 5).blk t).view.emb (ix1 h)) = _
  rw [V_main_arg3]
  obtain ⟨-, -, -, -, -, -, -, -, -, -, -, e5, -⟩ := idx_facts t
  refine congrArg _ (funext fun a => Fin.ext ?_)
  match a with
  | ⟨0, _⟩ => show win0_5.index t (0 : Fin 1) * 256 + 1 * h.val = h.val; omega

/-- W2 comes whole as a vector: entry h is W2 (h, 0). -/
theorem blk6 (c : Dev nD) (t : Fin cfg0.N) (h : Fin 256) :
    iblk m c 6 t (ix1 h) = m ((c : Thread nD τ).loc main_arg4) (ix2 h 0) := by
  show V m c main_v3 (((cfg0.win 6).blk t).view.emb (ix1 h)) = _
  rw [V_v3]
  obtain ⟨-, -, -, -, -, -, -, -, -, -, -, -, e6, -⟩ := idx_facts t
  refine shapeCast_apply _ _ _ _ ?_
  show ((⟨2, ![256, 1]⟩ : Shape).rowMajor (ix2 h 0)).val = ((⟨1, ![256]⟩ : Shape).rowMajor (((cfg0.win 6).blk t).view.emb (ix1 h))).val
  rw [Shape.rowMajor_val_two, Shape.rowMajor_val_one]
  show h.val * 1 + 0 = win0_6.index t (0 : Fin 1) * 256 + 1 * h.val
  omega

/-- The second bias comes whole. -/
theorem blk7 (c : Dev nD) (t : Fin cfg0.N) :
    iblk m c 7 t (ix1 0) = m ((c : Thread nD τ).loc main_arg5) (ix1 0) := by
  show V m c main_arg5 (((cfg0.win 7).blk t).view.emb (ix1 0)) = _
  rw [V_main_arg5]
  obtain ⟨-, -, -, -, -, -, -, -, -, -, -, -, -, e7, -⟩ := idx_facts t
  refine congrArg _ (funext fun a => Fin.ext ?_)
  match a with
  | ⟨0, _⟩ => show win0_7.index t (0 : Fin 1) * 1 + 1 * 0 = 0; omega

/-- The row tile the body loads at point t is rows 64·(t % 4) … of batch t / 4. -/
theorem tile (c : Dev nD) (t : Fin cfg0.N) (r : Fin 64) (k : Fin 128) :
    rowTile (grid0.coords t) (iblk m c 0 t) (ix3 0 r k)
      = m ((c : Thread nD τ).loc main_arg0) (ix3 (batchOf t) (rowOf t r) k) := by
  obtain ⟨-, -, -, -, -, -, -, -, -, -, -, -, -, -, -, -, -, o0, o1, o2⟩ := idx_facts t
  have e : (Rect.unit (s := S1x256x128) (k0_off1 (grid0.coords t)) S1x64x128.size (k0_off1_inb (grid0.coords t))).idx (ix3 0 r k)
      = ix3 0 (rowOf t r) k := funext fun a => Fin.ext (by
    match a with
    | ⟨0, _⟩ => show k0_off1 (grid0.coords t) (0 : Fin 3) + 1 * 0 = 0; omega
    | ⟨1, _⟩ => show k0_off1 (grid0.coords t) (1 : Fin 3) + 1 * r.val = 64 * (t.val % 4) + r.val; omega
    | ⟨2, _⟩ => show k0_off1 (grid0.coords t) (2 : Fin 3) + 1 * k.val = k.val; omega)
  show iblk m c 0 t ((Rect.unit (s := S1x256x128) (k0_off1 (grid0.coords t)) S1x64x128.size (k0_off1_inb (grid0.coords t))).idx (ix3 0 r k)) = _
  rw [e]
  exact blk0 m c t (rowOf t r) k

end Cert.Readout.Blocks

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibUnitAxes.lean ====
/-
  Unit axes added or repeated, read at an index.

  A shape cast that only inserts unit axes keeps the row-major position, so it reads the operand at the index with
  those axes removed: [a, b] → [a, 1, b] at (i, u, j) is the operand at (i, j), and [a] → [1, 1, a] at (u, u', i) is the
  operand at i. A broadcast along unit axes of a three-axis array reads the operand with those coordinates put to 0:
  [a, 1, c], [1, b, c] and [1, 1, c] broadcast to [a, b, c]. All five are generic in the extents and in the element
  type; an axis of the operand whose extent happens to be 1 has only the coordinate 0, so the two readings agree there.
-/
import Idealize.ShloMosaic.Lib.ValueIdx
import Idealize.ShloMosaic.Lib.Pipeline.Value

noncomputable section

namespace Cert.LibUnitAxes

open Idealize.ShloMosaic Idealize.ShloMosaic.ValueIdx

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, u', i)`, the operand at `i`. -/
theorem shapeCast_a_11a_apply {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp only [hu, hu', Nat.zero_mul, Nat.zero_add, Nat.mul_one])

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

end Cert.LibUnitAxes

end
-- ==== Proof.Payload.lean ====
/-
  The kernel body's three stored values, each read at one index, on the extended reals.

  The body computes three things from the vectors it loads. From the block x of one batch ([1, 256, 128]) and the band
  of W1 that meets node j ([128, 256]) it forms the matrix relu (x) · band, whose entry (j, h) is the 128-term
  contraction ∑ k, max (x (0, j, k)) 0 · band (k, h). From the same block it forms the per-batch row: the sum of x over
  the 256 nodes, divided by the float 256, through the 128 → 128 map, rectified, against the pooled band of W1, plus
  the first bias; its entry (0, h) is ∑ k, max (∑ f, (∑ n, x (0, n, f)) / 256 · Wp (f, k)) 0 · band (k, h) + b1 h.
  From a block of 64 rows of x, the band of node i, the per-batch row, the matrix above, the second layer's weights
  and the second bias it forms the output block, whose entry (0, r, j) is
  ∑ h, max ((∑ k, max (x (0, r, k)) 0 · band (k, h) + row (0, h)) + matrix (j, h)) 0 · w2 h + b2.

  Each statement is proved by reading the value at the index from the outside in: the pointwise operations read
  through by definition, a matrix product into the zero splat is the sum over the contracted coordinate, a sum over one
  axis is the sum over that axis's coordinates, and the casts and broadcasts that only add, drop or repeat unit axes
  read the operand at the index with those axes' coordinates put to 0 or removed. The word 0x43800000 (the float 256)
  is kept as a word; only the zero word is evaluated.
-/
import proofs.«120673_j67302137528973_2_alg».proof.Proof.Gen.KernelIdeal.Skeleton
import proofs.«120673_j67302137528973_2_alg».proof.Proof.LibDot
import proofs.«120673_j67302137528973_2_alg».proof.Proof.LibUnitAxes
import Idealize.ShloMosaic.Lib.ValueIdx
import Idealize.ShloMosaic.Lib.ValueLayout
import Idealize.ShloMosaic.Lib.Pipeline.Value
import Idealize.ShloMosaic.PureOps.Ideal.Laws

noncomputable section

namespace Cert.Readout.Payload

open Cert.KernelIdeal Cert.KernelIdeal.Gen Idealize.ShloMosaic Idealize.ShloMosaic.ValueIdx Cert.LibUnitAxes

/-- The shared cast that drops the block's leading unit axis: entry (j, k) is the block's entry (0, j, k). -/
theorem pay1_apply (v37 : Vec Ideal S1x256x128 .f32) (j : Fin 256) (k : Fin 128) :
    k0_pay1 (F := Ideal) v37 (ix2 j k) = v37 (ix3 0 j k) :=
  shapeCast_1ab_ab_apply v37 _ j k

/-- The rectified node block against the band of node j: entry (j, h) is the 128-term contraction of
    relu (x j k) with the band's column h. -/
theorem pay2_apply (v37 : Vec Ideal S1x256x128 .f32) (v41 : Vec Ideal S128x256 .f32) (j h : Fin 256) :
    k0_pay2 (F := Ideal) v37 v41 (ix2 j h) = ∑ k : Fin 128, max (v37 (ix3 0 j k)) 0 * v41 (ix2 k h) := by
  unfold k0_pay2
  rw [shapeCast_self, shapeCast_self]
  refine (Cert.LibDot.matmul_zero_plain_apply dot_S256x128_S128x256_S256x256_1_0_0_1_n_n rfl rfl rfl rfl rfl rfl none _ _ (ix2 j h)).trans ?_
  refine Finset.sum_congr rfl fun k _ => ?_
  show max (k0_pay1 v37 (ix2 j k)) (Ideal.ofBits .f32 0x00000000#32) * v41 (ix2 k h) = _
  rw [pay1_apply, Ideal.ofBits_zero_f32]

/-- The node sum: the reduction over the block's node axis, at feature f, is the sum over the 256 nodes. -/
theorem nodeSum_apply (v37 : Vec Ideal S1x256x128 .f32) (f : Fin 128) :
    multiReduction (F := Ideal) .add [0] S128 (k0_pay1 v37) 0x00000000#32 reduces_S256x128_S128 (.inl rfl) rfl (ix1 f)
      = ∑ n : Fin 256, v37 (ix3 0 n f) := by
  refine (Ideal.multiReduction_add_single (k0_pay1 (F := Ideal) v37) 0x00000000#32 reduces_S256x128_S128 (.inl rfl) rfl (ix1 f)).trans ?_
  show ∑ n : Fin 256, k0_pay1 (F := Ideal) v37 (reduces_S256x128_S128.lift (ix1 f) n) = _
  refine Finset.sum_congr rfl fun n _ => ?_
  have e : reduces_S256x128_S128.lift (ix1 f) n = ix2 n f :=
    funext fun a => Fin.ext (by match a with | ⟨0, _⟩ => rfl | ⟨1, _⟩ => rfl)
  exact (congrArg (k0_pay1 (F := Ideal) v37) e).trans (pay1_apply v37 n f)

/-- The per-batch vector: the node mean through the 128 → 128 map, rectified, against the pooled band, plus the
    first bias. -/
theorem pay3_apply (v37 : Vec Ideal S1x256x128 .f32) (v51 : Vec Ideal S128x128 .f32) (v55 : Vec Ideal S128x256 .f32) (v58 : Vec Ideal S256 .f32) (h : Fin 256) :
    k0_pay3 (F := Ideal) v37 v51 v55 v58 (ix2 0 h)
      = (∑ k : Fin 128, max (∑ f : Fin 128, Ideal.div (∑ n : Fin 256, v37 (ix3 0 n f)) (Ideal.ofBits .f32 0x43800000#32) * v51 (ix2 f k)) 0 * v55 (ix2 k h)) + v58 (ix1 h) := by
  unfold k0_pay3
  rw [shapeCast_self, shapeCast_self]
  refine (addf_apply _ _ _).trans ?_
  refine congrArg₂ (· + ·) ?_ (shapeCast_a_1a_apply v58 _ 0 h)
  refine (Cert.LibDot.matmul_zero_plain_apply dot_S1x128_S128x256_S1x256_1_0_0_1_n_n rfl rfl rfl rfl rfl rfl none _ _ (ix2 0 h)).trans ?_
  refine Finset.sum_congr rfl fun k _ => ?_
  refine congrArg₂ (· * ·) ?_ rfl
  refine (maximumf_apply _ _ _).trans ?_
  refine congrArg₂ max ?_ Ideal.ofBits_zero_f32
  refine (Cert.LibDot.matmul_zero_plain_apply dot_S1x128_S128x128_S1x128_1_0_0_1_n_n rfl rfl rfl rfl rfl rfl none _ _ (ix2 0 k)).trans ?_
  refine Finset.sum_congr rfl fun f _ => ?_
  refine congrArg₂ (· * ·) ?_ rfl
  refine (divf_apply _ _ _).trans ?_
  refine congrArg₂ Ideal.div ?_ rfl
  refine (shapeCast_a_1a_apply _ _ 0 f).trans ?_
  exact nodeSum_apply v37 f

/-- The lane sum: the reduction over the last axis of a [64, 256, 256] array, at (r, j), is the sum over the 256
    hidden units. -/
theorem laneSum_apply (src : FVec Ideal S64x256x256 .f32) (r : Fin 64) (j : Fin 256) :
    multiReduction (F := Ideal) .add [2] S64x256 src 0x00000000#32 reduces_S64x256x256_S64x256 (.inl rfl) rfl (ix2 r j)
      = ∑ h : Fin 256, src (ix3 r j h) := by
  refine (Ideal.multiReduction_add_single src 0x00000000#32 reduces_S64x256x256_S64x256 (.inl rfl) rfl (ix2 r j)).trans ?_
  show ∑ h : Fin 256, src (reduces_S64x256x256_S64x256.lift (ix2 r j) h) = _
  refine Finset.sum_congr rfl fun h _ => ?_
  exact congrArg src (funext fun a => Fin.ext (by match a with | ⟨0, _⟩ => rfl | ⟨1, _⟩ => rfl | ⟨2, _⟩ => rfl))

/-- The output block: at row r of the block and node j, the rectified sum of the row's projection, the per-batch
    vector and node j's projection, against the second layer's weights, plus the second bias. -/
theorem pay4_apply (v6 : Vec Ideal S1x64x128 .f32) (v10 : Vec Ideal S128x256 .f32) (v13 : Vec Ideal S1x256 .f32) (v16 : Vec Ideal S256x256 .f32) (v24 : Vec Ideal S256 .f32) (v30 : Vec Ideal S1 .f32) (r : Fin 64) (j : Fin 256) :
    k0_pay4 (F := Ideal) v6 v10 v13 v16 v24 v30 (ix3 0 r j)
      = (∑ h : Fin 256, max (((∑ k : Fin 128, max (v6 (ix3 0 r k)) 0 * v10 (ix2 k h)) + v13 (ix2 0 h)) + v16 (ix2 j h)) 0 * v24 (ix1 h)) + v30 (ix1 0) := by
  unfold k0_pay4
  rw [shapeCast_self, shapeCast_self]
  refine (shapeCast_ab_1ab_apply _ _ 0 r j).trans ?_
  refine (addf_apply _ _ _).trans ?_
  refine congrArg₂ (· + ·) ?_ ?_
  · refine (laneSum_apply _ r j).trans ?_
    refine Finset.sum_congr rfl fun h _ => ?_
    refine (mulf_apply _ _ _).trans ?_
    refine congrArg₂ (· * ·) ?_ ?_
    · refine (maximumf_apply _ _ _).trans ?_
      refine congrArg₂ max ?_ Ideal.ofBits_zero_f32
      refine (addf_apply _ _ _).trans ?_
      refine congrArg₂ (· + ·) ?_ ?_
      · refine (broadcastTo_a1c_abc_apply _ _ r j h).trans ?_
        refine (shapeCast_ab_a1b_apply _ _ r 0 h).trans ?_
        refine (addf_apply _ _ _).trans ?_
        refine congrArg₂ (· + ·) ?_ (broadcastTo_1b_ab_apply v13 _ r h)
        refine (Cert.LibDot.matmul_zero_plain_apply dot_S64x128_S128x256_S64x256_1_0_0_1_n_n rfl rfl rfl rfl rfl rfl none _ _ (ix2 r h)).trans ?_
        refine Finset.sum_congr rfl fun k _ => ?_
        refine congrArg₂ (· * ·) ?_ rfl
        refine (maximumf_apply _ _ _).trans ?_
        exact congrArg₂ max (shapeCast_1ab_ab_apply v6 _ r k) Ideal.ofBits_zero_f32
      · refine (broadcastTo_1bc_abc_apply _ _ r j h).trans ?_
        exact shapeCast_ab_1ab_apply v16 _ 0 j h
    · refine (broadcastTo_11c_abc_apply _ _ r j h).trans ?_
      exact shapeCast_a_11a_apply v24 _ 0 0 h
  · show extractAt ![0] v30 inpos_S1_p0 = v30 (ix1 0)
    exact congrArg v30 (funext fun a => Fin.ext (by match a with | ⟨0, _⟩ => rfl))

end Cert.Readout.Payload

end
-- ==== Proof.Points.lean ====
/-
  What the kernel's buffers hold after each grid point.

  By induction on the point: after point t (batch b = t / 4, row tile t % 4) the first carried buffer holds the node-j
  projection of batch b, the second the per-batch row of batch b, and the output's staging buffer the output tile —
  rows 64·(t % 4) … of batch b. A batch's first point fills the two carried buffers from the batch's blocks; the other
  three find them as the point before left them, and t − 1 is a point of the same batch.
-/
import proofs.«120673_j67302137528973_2_alg».proof.Proof.Blocks
import proofs.«120673_j67302137528973_2_alg».proof.Proof.Payload
import proofs.«120673_j67302137528973_2_alg».proof.Proof.Spec

set_option maxRecDepth 16384

noncomputable section

open Idealize.ShloMosaic Idealize.ShloMosaic.TcCoe Idealize.SL.Sem
open Idealize.ShloMosaic.Pipeline (Dat)

namespace Cert.Readout.Points

open Cert.KernelIdeal Cert.KernelIdeal.Gen

open Idealize.ShloMosaic.ValueIdx Cert.Readout Cert.Readout.Blocks Cert.Readout.Pieces Cert.Readout.Payload

variable (m : (ℓ : Loc nD τ sig) → Buf (Elt Ideal) ℓ)

/-- The six argument arrays on a core. -/
abbrev aX (c : Dev nD) : S4x256x128.Idx → EReal := m ((c : Thread nD τ).loc main_arg0)
abbrev aWp (c : Dev nD) : S128x128.Idx → EReal := m ((c : Thread nD τ).loc main_arg1)
abbrev aW1 (c : Dev nD) : S384x256.Idx → EReal := m ((c : Thread nD τ).loc main_arg2)
abbrev aB1 (c : Dev nD) : S256.Idx → EReal := m ((c : Thread nD τ).loc main_arg3)
abbrev aW2 (c : Dev nD) : S256x1.Idx → EReal := m ((c : Thread nD τ).loc main_arg4)
abbrev aB2 (c : Dev nD) : S1.Idx → EReal := m ((c : Thread nD τ).loc main_arg5)

/-- The node-j projection of batch b, as a 256 × 256 buffer. -/
def bufJ (c : Dev nD) (b : Fin 4) : Vec Ideal S256x256 .f32 := fun y => projJ (aX m c) (aW1 m c) b (y 0) (y 1)
/-- The per-batch row of batch b, as a 1 × 256 buffer. -/
def bufP (c : Dev nD) (b : Fin 4) : Vec Ideal S1x256 .f32 := fun y => pv (aX m c) (aWp m c) (aW1 m c) (aB1 m c) b (y 1)
/-- The output tile of point t, as a 1 × 64 × 256 buffer. -/
def bufO (c : Dev nD) (t : Fin cfg0.N) : Vec Ideal S1x64x256 .f32 := fun y =>
  out (aX m c) (aWp m c) (aW1 m c) (aB1 m c) (aW2 m c) (aB2 m c) (batchOf t) (rowOf t (y 1)) (y 2)

/-- The node-j projection computed from point t's blocks is batch (t / 4)'s. -/
theorem projJ_at (c : Dev nD) (t : Fin cfg0.N) :
    k0_pay2 (F := Ideal) (iblk m c 0 t) (iblk m c 2 t) = bufJ m c (batchOf t) := by
  funext y
  obtain ⟨j, h, rfl⟩ : ∃ (j : Fin 256) (h : Fin 256), y = ix2 j h := ⟨y 0, y 1, eq_ix2 y⟩
  refine (pay2_apply (iblk m c 0 t) (iblk m c 2 t) j h).trans ?_
  show _ = projJ (aX m c) (aW1 m c) (batchOf t) j h
  unfold projJ relu
  refine Finset.sum_congr rfl fun k _ => ?_
  rw [blk0 m c t j k, blk2 m c t k h]

/-- The per-batch row computed from point t's blocks is batch (t / 4)'s. -/
theorem pv_at (c : Dev nD) (t : Fin cfg0.N) :
    k0_pay3 (F := Ideal) (iblk m c 0 t) (iblk m c 3 t) (iblk m c 4 t) (iblk m c 5 t) = bufP m c (batchOf t) := by
  funext y
  obtain ⟨o, h, rfl⟩ : ∃ (o : Fin 1) (h : Fin 256), y = ix2 o h := ⟨y 0, y 1, eq_ix2 y⟩
  obtain rfl : o = 0 := Subsingleton.elim _ _
  refine (pay3_apply (iblk m c 0 t) (iblk m c 3 t) (iblk m c 4 t) (iblk m c 5 t) h).trans ?_
  show _ = pv (aX m c) (aWp m c) (aW1 m c) (aB1 m c) (batchOf t) h
  unfold pv projP pooled mean relu
  simp only [blk0 m c t, blk3 m c t, blk4 m c t, blk5 m c t]

/-- The output tile computed at point t from its blocks and the two buffers of its batch. -/
theorem out_at (c : Dev nD) (t : Fin cfg0.N) :
    k0_pay4 (F := Ideal) (rowTile (grid0.coords t) (iblk m c 0 t)) (iblk m c 1 t) (bufP m c (batchOf t)) (bufJ m c (batchOf t))
      (iblk m c 6 t) (iblk m c 7 t) = bufO m c t := by
  funext y
  obtain ⟨o, r, j, rfl⟩ : ∃ (o : Fin 1) (r : Fin 64) (j : Fin 256), y = ix3 o r j := ⟨y 0, y 1, y 2, eq_ix3 y⟩
  obtain rfl : o = 0 := Subsingleton.elim _ _
  refine (pay4_apply (rowTile (grid0.coords t) (iblk m c 0 t)) (iblk m c 1 t) (bufP m c (batchOf t)) (bufJ m c (batchOf t))
    (iblk m c 6 t) (iblk m c 7 t) r j).trans ?_
  show _ = out (aX m c) (aWp m c) (aW1 m c) (aB1 m c) (aW2 m c) (aB2 m c) (batchOf t) (rowOf t r) j
  unfold out projI relu
  simp only [tile m c t, blk1 m c t, blk6 m c t, blk7 m c t]
  rfl

/-- The three buffers after point t. -/
def after (c : Dev nD) (t : Fin cfg0.N) : Vec Ideal S1x64x256 .f32 × Vec Ideal S256x256 .f32 × Vec Ideal S1x256 .f32 :=
  (bufO m c t, bufJ m c (batchOf t), bufP m c (batchOf t))

/-- After every point the buffers hold the output tile and the two per-batch buffers of the point's batch. -/
theorem outs_eq (c : Dev nD) : ∀ (n : ℕ) (h : n < cfg0.N), outsAt0 m c n h = after m c ⟨n, h⟩ := by
  intro n
  induction n using Nat.strong_induction_on with
  | _ n ih =>
    intro h
    by_cases h0 : n % 4 = 0
    · refine (outsAt0_A m c ⟨n, h⟩ h0).trans ?_
      refine congrArg₂ Prod.mk ?_ (congrArg₂ Prod.mk ?_ ?_)
      · refine (out_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) scM0_0 (Memref.isWhole_whole _) scM0_1 (Memref.isWhole_whole _) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩)).trans ?_
        rw [pv_at m c ⟨n, h⟩, projJ_at m c ⟨n, h⟩]
        exact out_at m c ⟨n, h⟩
      · exact (termj_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) scM0_0 (Memref.isWhole_whole _) scM0_1 (Memref.isWhole_whole _) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩)).trans (projJ_at m c ⟨n, h⟩)
      · exact (pv_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) scM0_0 (Memref.isWhole_whole _) scM0_1 (Memref.isWhole_whole _) ((hcond0_0 ⟨n, h⟩).mpr h0) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩)).trans (pv_at m c ⟨n, h⟩)
    · have hn : n - 1 < cfg0.N := by omega
      have hb : batchOf ⟨n - 1, hn⟩ = batchOf ⟨n, h⟩ := Fin.ext (by show (n - 1) / 4 = n / 4; omega)
      have ih' : outsAt0 m c (n - 1) hn = after m c ⟨n - 1, hn⟩ := ih (n - 1) (by omega) hn
      refine (outsAt0_B m c ⟨n, h⟩ h0).trans ?_
      have e1 : (outsAt0 m c (n - 1) hn).2.1 = bufJ m c (batchOf ⟨n, h⟩) := by rw [ih']; exact congrArg (bufJ m c) hb
      have e2 : (outsAt0 m c (n - 1) hn).2.2 = bufP m c (batchOf ⟨n, h⟩) := by rw [ih']; exact congrArg (bufP m c) hb
      refine congrArg₂ Prod.mk ?_ (congrArg₂ Prod.mk e1 e2)
      refine (out_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) scM0_0 (Memref.isWhole_whole _) scM0_1 (Memref.isWhole_whole _) (fun hh => h0 ((hcond0_0 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) _ _).trans ?_
      rw [e1, e2]
      exact out_at m c ⟨n, h⟩

end Cert.Readout.Points

end
-- ==== Proof.Final.lean ====
/-
  From the output tiles to the result array, and the kernel's run read.

  Point t writes its output tile back as rows 64·(t % 4) … of batch t / 4 of the [4, 256, 256] array; the sixteen tiles
  cover the array (row r of batch b lies in the tile of point 4·b + r / 64), so the array ends holding the layer's
  output at every (b, i, j). The one host operation behind the region appends a unit axis.
-/
import proofs.«120673_j67302137528973_2_alg».proof.Proof.Points
import Idealize.ShloMosaic.Lib.StableHlo.Run

set_option maxRecDepth 16384

noncomputable section

open Idealize.ShloMosaic Idealize.ShloMosaic.TcCoe Idealize.SL.Sem
open Idealize.ShloMosaic.Pipeline (Dat)

namespace Cert.Readout.Final

open Cert.KernelIdeal Cert.KernelIdeal.Gen

open Idealize.ShloMosaic.ValueIdx Idealize.ShloMosaic.StableHlo Cert.Readout Cert.Readout.Blocks Cert.Readout.Points

variable (m : (ℓ : Loc nD τ sig) → Buf (Elt Ideal) ℓ) (ρ : Dev nD → PrngReg)

/-- The [4, 256, 256] array of the layer's outputs. -/
def outArr (c : Dev nD) : S4x256x256.Idx → EReal := fun i =>
  out (aX m c) (aWp m c) (aW1 m c) (aB1 m c) (aW2 m c) (aB2 m c) (i 0) (i 1) (i 2)

/-- What point t writes back is its block of that array. -/
theorem flushed_eq (c : Dev nD) (t : Fin cfg0.N) :
    (dats m 0 c).flushed 8 t = ((cfg0.win 8).blk t).view.read (Elt Ideal) (outArr m c) := by
  show (cfg0.win 8).cut (grid0.coords t) ((dats m 0 c).after 8 t) = _
  rw [after0_8, outs_eq m c t.val t.isLt]
  funext y
  obtain ⟨o, r, j, rfl⟩ : ∃ (o : Fin 1) (r : Fin 64) (j : Fin 256), y = ix3 o r j := ⟨y 0, y 1, y 2, eq_ix3 y⟩
  obtain rfl : o = 0 := Subsingleton.elim _ _
  obtain ⟨-, -, -, -, -, -, -, -, -, -, -, -, -, -, e0, e1, e2, -⟩ := idx_facts t
  have e : ((cfg0.win 8).blk t).view.emb (ix3 0 r j) = ix3 (batchOf t) (rowOf t r) j := funext fun a => Fin.ext (by
    match a with
    | ⟨0, _⟩ => show win0_8.index t (0 : Fin 3) * 1 + 1 * 0 = t.val / 4; omega
    | ⟨1, _⟩ => show win0_8.index t (1 : Fin 3) * 64 + 1 * r.val = 64 * (t.val % 4) + r.val; omega
    | ⟨2, _⟩ => show win0_8.index t (2 : Fin 3) * 256 + 1 * j.val = j.val; omega)
  show bufO m c t (ix3 0 r j) = outArr m c (((cfg0.win 8).blk t).view.emb (ix3 0 r j))
  rw [e]
  rfl

/-- An index of the array is in point t's block iff each coordinate is in the block's range on its axis. -/
theorem mem_blk (t : Fin cfg0.N) (i : S4x256x256.Idx) :
    i ∈ ((cfg0.win 8).blk t).view.set ↔ ∀ a : Fin 3, win0_8.index t a * S1x64x256.size a ≤ (i a).val
      ∧ (i a).val < win0_8.index t a * S1x64x256.size a + S1x64x256.size a := by
  show i ∈ ((View.whole main_v4).slice (win0_8.rect t)).set ↔ _
  rw [View.set_slice_whole, Rect.mem_set_unit]
  exact Iff.rfl

/-- The sixteen tiles cover the array: row i₁ of batch i₀ is in the tile of point 4·i₀ + i₁ / 64. -/
theorem cover (i : S4x256x256.Idx) :
    ∃ t : Fin cfg0.N, (cfg0.win 8).flush t = true ∧ i ∈ ((cfg0.win 8).blk t).view.set := by
  have h0 : (i 0).val < 4 := (i 0).isLt
  have h1 : (i 1).val < 256 := (i 1).isLt
  have h2 : (i 2).val < 256 := (i 2).isLt
  have hN := N16
  let t : Fin cfg0.N := ⟨4 * (i 0).val + (i 1).val / 64, by omega⟩
  obtain ⟨-, -, -, -, -, -, -, -, -, -, -, -, -, -, e0, e1, e2, -⟩ := idx_facts t
  have ht : t.val = 4 * (i 0).val + (i 1).val / 64 := rfl
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 64 ≤ (i 1).val ∧ (i 1).val < win0_8.index t (1 : Fin 3) * 64 + 64; omega
  | ⟨2, _⟩ => show win0_8.index t (2 : Fin 3) * 256 ≤ (i 2).val ∧ (i 2).val < win0_8.index t (2 : Fin 3) * 256 + 256; omega

/-- So the output array ends holding the layer's output everywhere. -/
theorem final (c : Dev nD) : (dats m 0 c).arrAt 8 cfg0.N = outArr m c :=
  (dats m 0 c).arrAt_eq_of_cover 8 (outArr m c) (fun t _ => flushed_eq m c t) (cover)

/-- The program's result: the output array with a unit axis appended. -/
theorem tail_eq (c : Dev nD) :
    Pipeline.afterTail₀ cfgs (dats m) 0 (V0 m) [hostOps1] c main_v5
      = G (aX m c) (aWp m c) (aW1 m c) (aB1 m c) (aW2 m c) (aB2 m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v4)
      = outArr m c :=
    (Pipeline.withArrays_arr spec0 launch0.win.arr_inj c _ _ 8).trans (final m c)
  rw [hw]
  funext y
  obtain ⟨b, i, j, o, rfl⟩ : ∃ (b : Fin 4) (i j : Fin 256) (o : Fin 1), y = ix4 b i j o := ⟨y 0, y 1, y 2, y 3, eq_ix4 y⟩
  refine (broadcastInDim_apply _ bcast_S4x256x256_S4x256x256x1_0_1_2 (outArr m c) (ix4 b i j o) (ix3 b i j) (fun a => ?_)).trans rfl
  match a with
  | ⟨0, _⟩ => show b.val = if (4 : Nat) = 1 then 0 else b.val; rw [if_neg (by decide)]
  | ⟨1, _⟩ => show i.val = if (256 : Nat) = 1 then 0 else i.val; rw [if_neg (by decide)]
  | ⟨2, _⟩ => show j.val = if (256 : Nat) = 1 then 0 else j.val; rw [if_neg (by decide)]

/-- The kernel's run, read: every weakly fair execution ends with the result array at the layer's output and the six
    argument arrays as they were. -/
theorem run : θ_run defs (onTc (τ := τ) (main (F := Ideal))) ⟨m, fun _ => 0, ρ⟩ fun r => ∀ c : Dev nD,
      r.2.mem ((c.tc : Thread nD τ).loc main_v5) = G (aX m c) (aWp m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
      ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c)))⟩)
    (run_main m ρ)

end Cert.Readout.Final

end
-- ==== Proof.lean ====
/-
  The readout layer of a message-passing network on 4 batches of 256 nodes with 128 features: for every batch b and
  pair of nodes (i, j),

      out (b, i, j) = Σ_h relu ( Σ_k relu (cat (b, i, j)) (k) · W1 (k, h) + b1 (h) ) · W2 (h, 0) + b2 (0),

  cat (b, i, j) the 384 features pooled (b), x (b, i), x (b, j) laid end to end, and pooled (b) the node mean of x (b)
  through W_pool. The reference materializes cat and contracts all 384 features at once. The kernel never builds cat:
  it contracts the three 128-row bands of W1 separately — the pooled band once per batch together with the bias, the
  band of node j once per batch for all 256 nodes, the band of node i per 64-row tile — and adds the three as
  (I + (P + b1)) + J before the second rectifier.

  On the extended reals the two are one function: a sum over 384 terms is the sum of its three bands, and + is
  commutative and associative there, infinities included. No product is distributed and nothing is cancelled, so
  finiteness of the inputs is never used; the mean is the same division by the same float 256 on both sides.

  Modules: Spec (the layer as one function of the six arrays, grouped as the kernel groups it); RefLaw and RefSide
  (the reference's result, read one operation at a time, is that function); Pieces (what one run of the kernel body
  leaves in its three buffers, as payloads of the blocks it loads); Payload (the payloads read at an index); Arrays
  and Blocks (what the region's windows hold at a grid point, read at coordinates); Points (by induction on the
  point, the buffers after each point); Final (the output tiles cover the array; the unit axis appended behind the
  region; the kernel's run re-posted). The ideal pass rewrote nothing in the kernel, so its idealization is its own
  text read at the extended reals.
-/
import proofs.«120673_j67302137528973_2_alg».proof.Defs
import proofs.«120673_j67302137528973_2_alg».proof.Proof.Gen.Kernel
import proofs.«120673_j67302137528973_2_alg».proof.Proof.Gen.Kernel.Skeleton
import proofs.«120673_j67302137528973_2_alg».proof.Proof.Gen.Kernel.Launch
import proofs.«120673_j67302137528973_2_alg».proof.Proof.Gen.Kernel.Points
import proofs.«120673_j67302137528973_2_alg».proof.Proof.Gen.Kernel.Frame
import proofs.«120673_j67302137528973_2_alg».proof.Proof.Gen.KernelIdeal
import proofs.«120673_j67302137528973_2_alg».proof.Proof.Gen.KernelIdeal.Skeleton
import proofs.«120673_j67302137528973_2_alg».proof.Proof.Gen.KernelIdeal.Launch
import proofs.«120673_j67302137528973_2_alg».proof.Proof.Gen.KernelIdeal.Points
import proofs.«120673_j67302137528973_2_alg».proof.Proof.Gen.KernelIdeal.Frame
import proofs.«120673_j67302137528973_2_alg».proof.Proof.Gen.ReferenceIdeal
import proofs.«120673_j67302137528973_2_alg».proof.Proof.Gen.Pre_finite_inputs
import proofs.«120673_j67302137528973_2_alg».proof.Proof.Gen.ReferenceIdeal.Run
import proofs.«120673_j67302137528973_2_alg».proof.Proof.Gen.ReferenceIdeal.Read
import proofs.«120673_j67302137528973_2_alg».proof.Proof.RefSide
import proofs.«120673_j67302137528973_2_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the layer's output, the same function of
    the same arrays, as their result. -/
theorem algebraic : Cert.algebraic_KernelIdeal_ReferenceIdeal := by
  intro m ρ m' ρ' _ hagree
  refine ⟨fun c => Cert.Readout.G (Cert.Readout.Points.aX m c) (Cert.Readout.Points.aWp m c) (Cert.Readout.Points.aW1 m c)
    (Cert.Readout.Points.aB1 m c) (Cert.Readout.Points.aW2 m c) (Cert.Readout.Points.aB2 m c), Cert.Readout.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Readout.Ref.ref_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
